-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v15) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x2048x1024 : Shape := ⟨3, ![16, 2048, 1024]⟩
abbrev S1024x1024 : Shape := ⟨2, ![1024, 1024]⟩
abbrev S1024 : Shape := ⟨1, ![1024]⟩
abbrev S_ : Shape := ⟨0, ![]⟩

class Facts : Prop where
  bcast_S_S16x2048x1024 : S_.BroadcastsInDim S16x2048x1024 (![] : Fin 0 → Fin S16x2048x1024.rank)
  reducesTo_S16x2048x1024_S_d0_1_2 : S16x2048x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S16x2048x1024 .f32) (main_arg1 : FVec F S16x2048x1024 .f32) (main_arg2 : FVec F S1024x1024 .f32) (main_arg3 : FVec F S1024 .f32) : IVec S_ 1 :=
  let main_v0 : FVec F S16x2048x1024 .f32 := Host.absf main_arg0
  let main_cst : FVec F S_ .f32 := constant S_ .f32 0x7F800000#32
  let main_v1 : FVec F S16x2048x1024 .f32 := broadcastInDim S16x2048x1024 ![] bcast_S_S16x2048x1024 main_cst
  let main_v2 : IVec S16x2048x1024 1 := cmpf .olt main_v0 main_v1
  let main_c : IVec S_ 1 := constantI S_ 1 1#1
  let main_v3 : IVec S_ 1 := (fun x v => Host.reduce IntOp.andi x v reducesTo_S16x2048x1024_S_d0_1_2 h_S_) main_v2 main_c
  let main_v4 : FVec F S16x2048x1024 .f32 := Host.absf main_arg1
  let main_cst_0 : FVec F S_ .f32 := constant S_ .f32 0x7F800000#32
  let main_v5 : FVec F S16x2048x1024 .f32 := broadcastInDim S16x2048x1024 ![] bcast_S_S16x2048x1024 main_cst_0
  let main_v6 : IVec S16x2048x1024 1 := cmpf .olt main_v4 main_v5
  let main_c_1 : IVec S_ 1 := constantI S_ 1 1#1
  let main_v7 : IVec S_ 1 := (fun x v => Host.reduce IntOp.andi x v reducesTo_S16x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S16x2048x1024 : Shape := ⟨3, ![16, 2048, 1024]⟩
abbrev S1024x1024 : Shape := ⟨2, ![1024, 1024]⟩
abbrev S1024 : Shape := ⟨1, ![1024]⟩
abbrev S16x2048x2048 : Shape := ⟨3, ![16, 2048, 2048]⟩
abbrev S1x256x1024 : Shape := ⟨3, ![1, 256, 1024]⟩
abbrev S1x2048x1024 : Shape := ⟨3, ![1, 2048, 1024]⟩
abbrev S1x256x2048 : Shape := ⟨3, ![1, 256, 2048]⟩
abbrev S2048x1024 : Shape := ⟨2, ![2048, 1024]⟩
abbrev S1x1024 : Shape := ⟨2, ![1, 1024]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 6
  | .vmem => 11
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S16x2048x2048, .f32⟩
  | .local _ .vmem, ⟨0, _⟩ => ⟨S1x256x1024, .f32⟩
  | .local _ .vmem, ⟨1, _⟩ => ⟨S1x256x1024, .f32⟩
  | .local _ .vmem, ⟨2, _⟩ => ⟨S1x2048x1024, .f32⟩
  | .local _ .vmem, ⟨3, _⟩ => ⟨S1024x1024, .f32⟩
  | .local _ .vmem, ⟨4, _⟩ => ⟨S1024, .f32⟩
  | .local _ .vmem, ⟨5, _⟩ => ⟨S1x256x1024, .f32⟩
  | .local _ .vmem, ⟨6, _⟩ => ⟨S1x256x1024, .f32⟩
  | .local _ .vmem, ⟨7, _⟩ => ⟨S1x256x2048, .f32⟩
  | .local _ .vmem, ⟨8, _⟩ => ⟨S1x256x2048, .f32⟩
  | .local _ .vmem, ⟨9, _⟩ => ⟨S2048x1024, .f32⟩
  | .local _ .vmem, ⟨10, _⟩ => ⟨S2048x1024, .bf16⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![16, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1x2048x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 1 → Memref sig .tc .vmem S1024x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S1x256x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  inb_S1x2048x1024_S1x2048x1024_0_0_0 : ∀ a, (![0, 0, 0] : Fin 3 → Nat) a + S1x2048x1024.size a ≤ S1x2048x1024.size a
  h_S1x2048x1024 : 0 < S1x2048x1024.numel
  shapeCasts_S1x2048x1024_S2048x1024 : S1x2048x1024.ShapeCasts S2048x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S2048x1024 : S1x1024.Broadcasts S2048x1024
  inb_S2048x1024_S2048x1024_0_0 : ∀ a, (![0, 0] : Fin 2 → Nat) a + S2048x1024.size a ≤ S2048x1024.size a
  h_S2048x1024 : 0 < S2048x1024.numel
  shapeCasts_S2048x1024_S2048x1024 : S2048x1024.ShapeCasts S2048x1024
  packedbf16_S2048x1024_S2048x1024_0_0 : (Rect.unit (s := S2048x1024) ![0, 0] S2048x1024.size inb_S2048x1024_S2048x1024_0_0).PackedRows (EltTy.packing .bf16)
  inb_S1x256x1024_S1x256x1024_0_0_0 : ∀ a, (![0, 0, 0] : Fin 3 → Nat) a + S1x256x1024.size a ≤ S1x256x1024.size a
  h_S1x256x1024 : 0 < S1x256x1024.numel
  shapeCasts_S1x256x1024_S256x1024 : S1x256x1024.ShapeCasts S256x1024
  reduces_S256x2048_S256 : S256x2048.Reduces [1] S256
  shapeCasts_S256_S256x1 : S256.ShapeCasts S256x1
  broadcasts_S256x1_S256x2048 : S256x1.Broadcasts S256x2048
  inb_S1x256x2048_S1x256x2048_0_0_0 : ∀ a, (![0, 0, 0] : Fin 3 → Nat) a + S1x256x2048.size a ≤ S1x256x2048.size a
  h_S1x256x2048 : 0 < S1x256x2048.numel
  shapeCasts_S1x256x2048_S256x2048 : S1x256x2048.ShapeCasts S256x2048
  shapeCasts_S256x2048_S1x256x2048 : S256x2048.ShapeCasts S1x256x2048
  shapeCasts_S256x1024_S1x256x1024 : S256x1024.ShapeCasts S1x256x1024
  dot_S2048x1024_S1024x1024_S2048x1024_1_0_0_1_n_n_wf : DotDims.WF S2048x1024 S1024x1024 S2048x1024 [1] [0] [0] [1] [] []
  dot_S256x1024_S2048x1024_S256x2048_1_1_0_0_n_n_wf : DotDims.WF S256x1024 S2048x1024 S256x2048 [1] [1] [0] [0] [] []
  dot_S256x2048_S2048x1024_S256x1024_1_0_0_1_n_n_wf : DotDims.WF S256x2048 S2048x1024 S256x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x1024.size a ≤ S16x2048x1024.size a
  hwx0_0 : ∀ i : grid0.Coords, EltTy.bits .f32 = 32 ∨ (Rect.block (s := S16x2048x1024) S1x256x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x2048x1024.size a ≤ S16x2048x1024.size a
  hwx0_1 : ∀ i : grid0.Coords, EltTy.bits .f32 = 32 ∨ (Rect.block (s := S16x2048x1024) S1x2048x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x1024.size a ≤ S1024x1024.size a
  hwx0_2 : ∀ i : grid0.Coords, EltTy.bits .f32 = 32 ∨ (Rect.block (s := S1024x1024) S1024x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024.size a ≤ S1024.size a
  hwx0_3 : ∀ i : grid0.Coords, EltTy.bits .f32 = 32 ∨ (Rect.block (s := S1024) S1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x256x1024.size a ≤ S16x2048x1024.size a
  hwx0_4 : ∀ i : grid0.Coords, EltTy.bits .f32 = 32 ∨ (Rect.block (s := S16x2048x1024) S1x256x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x256x2048.size a ≤ S16x2048x2048.size a
  hwx0_5 : ∀ i : grid0.Coords, EltTy.bits .f32 = 32 ∨ (Rect.block (s := S16x2048x2048) S1x256x2048.size (cc0_transform_5 i) (hinb0_5 i)).WholeWords (EltTy.packing .f32)

variable [Facts₀]

def dot_S2048x1024_S1024x1024_S2048x1024_1_0_0_1_n_n : DotDims S2048x1024 S1024x1024 S2048x1024 where
  lhsContracting := [1]
  rhsContracting := [0]
  lhsNonContracting := [0]
  rhsNonContracting := [1]
  lhsBatch := []
  rhsBatch := []
  wf := dot_S2048x1024_S1024x1024_S2048x1024_1_0_0_1_n_n_wf
def dot_S256x1024_S2048x1024_S256x2048_1_1_0_0_n_n : DotDims S256x1024 S2048x1024 S256x2048 where
  lhsContracting := [1]
  rhsContracting := [1]
  lhsNonContracting := [0]
  rhsNonContracting := [0]
  lhsBatch := []
  rhsBatch := []
  wf := dot_S256x1024_S2048x1024_S256x2048_1_1_0_0_n_n_wf
def dot_S256x2048_S2048x1024_S256x1024_1_0_0_1_n_n : DotDims S256x2048 S2048x1024 S256x1024 where
  lhsContracting := [1]
  rhsContracting := [0]
  lhsNonContracting := [0]
  rhsNonContracting := [1]
  lhsBatch := []
  rhsBatch := []
  wf := dot_S256x2048_S2048x1024_S256x1024_1_0_0_1_n_n_wf

abbrev win0_0 : Pipeline.Window sig grid0 :=
  Pipeline.Window.ofSpec (Memref.whole main_arg0) S1x256x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S1x2048x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S1024x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S1x256x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S1x256x2048.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S16x2048x1024 : Shape := ⟨3, ![16, 2048, 1024]⟩
abbrev S1024x1024 : Shape := ⟨2, ![1024, 1024]⟩
abbrev S1024 : Shape := ⟨1, ![1024]⟩
abbrev S1x1x1024 : Shape := ⟨3, ![1, 1, 1024]⟩
abbrev S16x2048x2048 : Shape := ⟨3, ![16, 2048, 2048]⟩
abbrev S_ : Shape := ⟨0, ![]⟩
abbrev S16x2048 : Shape := ⟨2, ![16, 2048]⟩
abbrev S16x2048x1 : Shape := ⟨3, ![16, 2048, 1]⟩

abbrev nBuf : Space → Nat
  | .hbm => 24
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S16x2048x1024, .f32⟩
  | .hbm, ⟨2, _⟩ => ⟨S1024x1024, .f32⟩
  | .hbm, ⟨3, _⟩ => ⟨S1024, .f32⟩
  | .hbm, ⟨4, _⟩ => ⟨S16x2048x1024, .f32⟩
  | .hbm, ⟨5, _⟩ => ⟨S1x1x1024, .f32⟩
  | .hbm, ⟨6, _⟩ => ⟨S16x2048x1024, .f32⟩
  | .hbm, ⟨7, _⟩ => ⟨S16x2048x1024, .f32⟩
  | .hbm, ⟨8, _⟩ => ⟨S16x2048x2048, .f32⟩
  | .hbm, ⟨9, _⟩ => ⟨S_, .f32⟩
  | .hbm, ⟨10, _⟩ => ⟨S16x2048, .f32⟩
  | .hbm, ⟨11, _⟩ => ⟨S_, .f32⟩
  | .hbm, ⟨12, _⟩ => ⟨S16x2048, .f32⟩
  | .hbm, ⟨13, _⟩ => ⟨S16x2048, .f32⟩
  | .hbm, ⟨14, _⟩ => ⟨S16x2048x1, .f32⟩
  | .hbm, ⟨15, _⟩ => ⟨S16x2048x2048, .f32⟩
  | .hbm, ⟨16, _⟩ => ⟨S16x2048x2048, .f32⟩
  | .hbm, ⟨17, _⟩ => ⟨S16x2048x2048, .f32⟩
  | .hbm, ⟨18, _⟩ => ⟨S_, .f32⟩
  | .hbm, ⟨19, _⟩ => ⟨S16x2048, .f32⟩
  | .hbm, ⟨20, _⟩ => ⟨S16x2048x1, .f32⟩
  | .hbm, ⟨21, _⟩ => ⟨S16x2048x2048, .f32⟩
  | .hbm, ⟨22, _⟩ => ⟨S16x2048x2048, .f32⟩
  | .hbm, ⟨23, _⟩ => ⟨S16x2048x1024, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_cst_1 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S16x2048x1024_0_1_2 : S1x1x1024.BroadcastsInDim S16x2048x1024 (![0, 1, 2] : Fin 3 → Fin S16x2048x1024.rank)
  reducesTo_S16x2048x2048_S16x2048_d2 : S16x2048x2048.ReducesTo [2] S16x2048
  h_S_ : 0 < S_.numel
  bcast_S_S16x2048 : S_.BroadcastsInDim S16x2048 (![] : Fin 0 → Fin S16x2048.rank)
  bcast_S16x2048_S16x2048x1_0_1 : S16x2048.BroadcastsInDim S16x2048x1 (![0, 1] : Fin 2 → Fin S16x2048x1.rank)
  bcast_S16x2048x1_S16x2048x2048_0_1_2 : S16x2048x1.BroadcastsInDim S16x2048x2048 (![0, 1, 2] : Fin 3 → Fin S16x2048x2048.rank)
  dot_S16x2048x1024_S1024x1024_S16x2048x1024_2_0_01_1_n_n_wf : DotDims.WF S16x2048x1024 S1024x1024 S16x2048x1024 [2] [0] [0, 1] [1] [] []
  dot_S16x2048x1024_S16x2048x1024_S16x2048x2048_2_2_1_1_0_0_wf : DotDims.WF S16x2048x1024 S16x2048x1024 S16x2048x2048 [2] [2] [1] [1] [0] [0]
  dot_S16x2048x2048_S16x2048x1024_S16x2048x1024_2_1_1_2_0_0_wf : DotDims.WF S16x2048x2048 S16x2048x1024 S16x2048x1024 [2] [1] [1] [2] [0] [0]

variable [Facts₀]

def dot_S16x2048x1024_S1024x1024_S16x2048x1024_2_0_01_1_n_n : DotDims S16x2048x1024 S1024x1024 S16x2048x1024 where
  lhsContracting := [2]
  rhsContracting := [0]
  lhsNonContracting := [0, 1]
  rhsNonContracting := [1]
  lhsBatch := []
  rhsBatch := []
  wf := dot_S16x2048x1024_S1024x1024_S16x2048x1024_2_0_01_1_n_n_wf
def dot_S16x2048x1024_S16x2048x1024_S16x2048x2048_2_2_1_1_0_0 : DotDims S16x2048x1024 S16x2048x1024 S16x2048x2048 where
  lhsContracting := [2]
  rhsContracting := [2]
  lhsNonContracting := [1]
  rhsNonContracting := [1]
  lhsBatch := [0]
  rhsBatch := [0]
  wf := dot_S16x2048x1024_S16x2048x1024_S16x2048x2048_2_2_1_1_0_0_wf
def dot_S16x2048x2048_S16x2048x1024_S16x2048x1024_2_1_1_2_0_0 : DotDims S16x2048x2048 S16x2048x1024 S16x2048x1024 where
  lhsContracting := [2]
  rhsContracting := [1]
  lhsNonContracting := [1]
  rhsNonContracting := [2]
  lhsBatch := [0]
  rhsBatch := [0]
  wf := dot_S16x2048x2048_S16x2048x1024_S16x2048x1024_2_1_1_2_0_0_wf

class Facts : Prop extends Facts₀ where

variable [Facts]
-- ==== Proof.Pieces.lean ====
/-
  What one run of the kernel body leaves behind, as values.

  A grid point with `q = 0` projects the batch's keys, stores them and the encoder block in the two buffers the kernel
  keeps between points, and goes on with the tile; any other point reads those two buffers as the point before left
  them. In both cases the alignment tile and the context tile are the body's arithmetic of the decoder tile, the keys
  and the values; this module reads that off the stores the body's run makes: each buffer is stored whole, once, so it
  ends holding that store's value, and a load after a store of the same buffer reads the stored value.
-/
import proofs.«172299_j24086176596734_2_alg».proof.Proof.Gen.KernelIdeal.Frame
import Idealize.ShloMosaic.Lib.Pipeline.Value
import Idealize.ShloMosaic.Lib.Tactic

set_option maxRecDepth 16384

noncomputable section

namespace Attn.Piece

open Cert.KernelIdeal Cert.KernelIdeal.Gen Idealize.ShloMosaic Idealize.ShloMosaic.TcCoe Idealize.SL.Sem Idealize.ShloMosaic.Tactic

variable {F : FTy → Type} [FloatOps F]

theorem hz2 : (![0, 0] : Fin 2 → Nat) = fun _ => 0 := funext fun a => by fin_cases a <;> rfl
theorem hz1 : (![0] : Fin 1 → Nat) = fun _ => 0 := funext fun a => by fin_cases a; rfl
theorem hz3 : (![0, 0, 0] : Fin 3 → Nat) = fun _ => 0 := funext fun a => by fin_cases a <;> rfl

/-! ## A point that projects the keys (`q = 0`) -/

/-- It leaves the key tile of its encoder block in the first kept buffer, -/
theorem keysA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .f32) (x3 : Vec F S1024 .f32) :
    sout0_A_0 c i arg2 harg2 arg3 harg3 arg4 harg4 arg5 harg5 arg6 harg6 arg7 harg7 arg8 harg8 arg9 harg9 hc0 x0 x1 x2 x3 = k0_pay2 x1 x2 x3 := by
  unfold sout0_A_0
  rw [View.read_writes_eq_canon _ _ _ (scover0_A_0 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

/-- the encoder block in the second, -/
theorem valsA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .f32) (x3 : Vec F S1024 .f32) :
    sout0_A_1 c i arg2 harg2 arg3 harg3 arg4 harg4 arg5 harg5 arg6 harg6 arg7 harg7 arg8 harg8 arg9 harg9 hc0 x0 x1 x2 x3 = k0_pay3 x1 := by
  unfold sout0_A_1
  rw [View.read_writes_eq_canon _ _ _ (scover0_A_1 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz2]
  simp only [View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

/-- the alignment tile of the decoder tile against those keys in the alignment block, -/
theorem alignA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .f32) (x3 : Vec F S1024 .f32) :
    out0_A_5 c i arg2 harg2 arg3 harg3 arg4 harg4 arg5 harg5 arg6 harg6 arg7 harg7 arg8 harg8 arg9 harg9 hc0 x0 x1 x2 x3 = k0_pay5 x0 (k0_pay2 x1 x2 x3) := by
  unfold out0_A_5
  rw [View.read_writes_eq_canon _ _ _ (cover0_A_5 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S2048x1024) _ hz2, View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

/-- and the context tile in the context block. -/
theorem ctxA (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : cond0_0 i) (x0 : Vec F S1x256x1024 .f32) (x1 : Vec F S1x2048x1024 .f32) (x2 : Vec F S1024x1024 .f32) (x3 : Vec F S1024 .f32) :
    out0_A_4 c i arg2 harg2 arg3 harg3 arg4 harg4 arg5 harg5 arg6 harg6 arg7 harg7 arg8 harg8 arg9 harg9 hc0 x0 x1 x2 x3 = k0_pay6 x0 (k0_pay2 x1 x2 x3) (k0_pay3 x1) := by
  unfold out0_A_4
  rw [View.read_writes_eq_canon _ _ _ (cover0_A_4 c i arg2 harg2 arg3 harg3 arg4 harg4 arg5 harg5 arg6 harg6 arg7 harg7 arg8 harg8 arg9 harg9 hc0 x0 x1 x2 x3)]
  unfold kernelRun0_A
  dsimp only
  sl_unfold_words
  rw [View.canon_unit_zero hz3]
  simp only [View.readCov_unit_zero (S := S2048x1024) _ hz2, View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

/-! ## Any other point, over the keys `xs0` and values `xs1` the point before left -/

theorem alignB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : ¬cond0_0 i) (x0 : Vec F S1x256x1024 .f32) (x1 : Vec F S1x2048x1024 .f32) (x2 : Vec F S1024x1024 .f32) (x3 : Vec F S1024 .f32) (xs0 : Vec F S2048x1024 .f32) (xs1 : Vec F S2048x1024 .bf16) :
    out0_B_5 c i arg2 harg2 arg3 harg3 arg4 harg4 arg5 harg5 arg6 harg6 arg7 harg7 arg8 harg8 arg9 harg9 hc0 x0 x1 x2 x3 xs0 xs1 = k0_pay5 x0 xs0 := by
  unfold out0_B_5
  rw [View.read_writes_eq_canon _ _ _ (cover0_B_5 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

theorem ctxB (c : Dev nD) (i : grid0.Coords) (arg2 : Memref sig .tc .vmem S1x256x1024 .f32) (harg2 : arg2.IsWhole) (arg3 : Memref sig .tc .vmem S1x2048x1024 .f32) (harg3 : arg3.IsWhole) (arg4 : Memref sig .tc .vmem S1024x1024 .f32) (harg4 : arg4.IsWhole) (arg5 : Memref sig .tc .vmem S1024 .f32) (harg5 : arg5.IsWhole) (arg6 : Memref sig .tc .vmem S1x256x1024 .f32) (harg6 : arg6.IsWhole) (arg7 : Memref sig .tc .vmem S1x256x2048 .f32) (harg7 : arg7.IsWhole) (arg8 : Memref sig .tc .vmem S2048x1024 .f32) (harg8 : arg8.IsWhole) (arg9 : Memref sig .tc .vmem S2048x1024 .bf16) (harg9 : arg9.IsWhole) (hc0 : ¬cond0_0 i) (x0 : Vec F S1x256x1024 .f32) (x1 : Vec F S1x2048x1024 .f32) (x2 : Vec F S1024x1024 .f32) (x3 : Vec F S1024 .f32) (xs0 : Vec F S2048x1024 .f32) (xs1 : Vec F S2048x1024 .bf16) :
    out0_B_4 c i arg2 harg2 arg3 harg3 arg4 harg4 arg5 harg5 arg6 harg6 arg7 harg7 arg8 harg8 arg9 harg9 hc0 x0 x1 x2 x3 xs0 xs1 = k0_pay6 x0 xs0 xs1 := by
  unfold out0_B_4
  rw [View.read_writes_eq_canon _ _ _ (cover0_B_4 c i arg2 harg2 arg3 harg3 arg4 harg4 arg5 harg5 arg6 harg6 arg7 harg7 arg8 harg8 arg9 harg9 hc0 x0 x1 x2 x3 xs0 xs1)]
  unfold kernelRun0_B
  dsimp only
  sl_unfold_words
  rw [View.canon_unit_zero hz3]
  simp only [View.readAt_eq_ld, harg2.read_unread, harg3.read_unread, harg4.read_unread, harg5.read_unread, harg8.read_unread, harg9.read_unread, View.ld_unit_zero (S := S1x256x1024) hz3, View.ld_unit_zero (S := S1x2048x1024) hz3, View.ld_unit_zero (S := S1024x1024) hz2, View.ld_unit_zero (S := S2048x1024) hz2, View.ld_unit_zero (S := S1024) hz1]

end Attn.Piece

end
-- ==== Proof.Carry.lean ====
/-
  What the kernel's two kept buffers and its two output blocks hold after every grid point.

  The grid is 16 batches by 8 decoder tiles, walked tile by tile within a batch: point `t` is batch `t / 8`, tile
  `t % 8`. A point's blocks are rectangles of the argument arrays: the decoder tile is rows `256·(t % 8) …` of batch
  `t / 8`, the encoder block is the whole of batch `t / 8`, the weights and the bias are whole. Only the first tile of
  a batch projects the keys; by induction on the point, the two kept buffers hold after EVERY point the keys and the
  values of the point's own batch — the first tile stores them, every later tile of the batch finds them as the tile
  before left them and leaves them alone. So at every point the two output blocks are the body's arithmetic of the
  decoder tile and of its batch's keys and values.
-/
import proofs.«172299_j24086176596734_2_alg».proof.Proof.Gen.KernelIdeal.Value
import proofs.«172299_j24086176596734_2_alg».proof.Proof.Pieces
import Idealize.ShloMosaic.Lib.Pipeline.Value
import Idealize.ShloMosaic.Lib.ValueIdx

noncomputable section

namespace Attn.Carry

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)

variable {F : FTy → Type} [FloatOps F]
variable (m : (ℓ : Loc nD τ sig) → Buf (Elt F) ℓ)

/-! ## The grid and the blocks -/

/-- Every window's block index at point `t`: batch `t / 8` and tile `t % 8` where the window moves, `0` elsewhere
    (decided over the 128 points). -/
theorem idx_facts : ∀ t : Fin cfg0.N,
    win0_0.index t (0 : Fin 3) = t.val / 8 ∧ win0_0.index t (1 : Fin 3) = t.val % 8 ∧ win0_0.index t (2 : Fin 3) = 0
    ∧ win0_1.index t (0 : Fin 3) = t.val / 8 ∧ win0_1.index t (1 : Fin 3) = 0 ∧ win0_1.index t (2 : Fin 3) = 0
    ∧ win0_2.index t (0 : Fin 2) = 0 ∧ win0_2.index t (1 : Fin 2) = 0
    ∧ win0_3.index t (0 : Fin 1) = 0
    ∧ win0_4.index t (0 : Fin 3) = t.val / 8 ∧ win0_4.index t (1 : Fin 3) = t.val % 8 ∧ win0_4.index t (2 : Fin 3) = 0
    ∧ win0_5.index t (0 : Fin 3) = t.val / 8 ∧ win0_5.index t (1 : Fin 3) = t.val % 8 ∧ win0_5.index t (2 : Fin 3) = 0 :=
  (by decide +kernel : ∀ t : Fin grid0.N, _)

theorem N_eq : cfg0.N = 128 := N_0

/-- The batch of a grid point. -/
def batchOf (t : Fin cfg0.N) : Fin 16 := ⟨t.val / 8, by have h : t.val < 128 := lt_of_lt_of_eq t.isLt N_eq; omega⟩

/-- The decoder row, within its batch, of row `q` of a grid point's tile. -/
def rowOf (t : Fin cfg0.N) (q : Fin 256) : Fin 2048 := ⟨t.val % 8 * 256 + q.val, by have := q.isLt; omega⟩

/-- Batch `b` of the encoder array, as a block with a leading unit axis. -/
def encBlk (c : Dev nD) (b : Fin 16) : Vec F S1x2048x1024 .f32 :=
  fun y => m ((c : Thread nD τ).loc main_arg1) (ix3 b (y 1) (y 2))

/-- The decoder tile of a grid point, as a block with a leading unit axis. -/
def decBlk (c : Dev nD) (t : Fin cfg0.N) : Vec F S1x256x1024 .f32 :=
  fun y => m ((c : Thread nD τ).loc main_arg0) (ix3 (batchOf t) (rowOf t (y 1)) (y 2))

theorem iblk0_eq (c : Dev nD) (t : Fin cfg0.N) : (iblk m c 0 t : Vec F S1x256x1024 .f32) = decBlk m c t := by
  obtain ⟨e0, e1, e2, -⟩ := idx_facts t
  funext y
  unfold iblk decBlk
  rw [View.read_apply]
  show V m c main_arg0 _ = m ((c : Thread nD τ).loc main_arg0) _
  unfold V
  congr 1
  funext a
  apply Fin.ext
  have hy : (y 0).val < 1 := (y 0).isLt
  match a with
  | ⟨0, _⟩ => show win0_0.index t (0 : Fin 3) * 1 + 1 * (y 0).val = t.val / 8; rw [e0]; omega
  | ⟨1, _⟩ => show win0_0.index t (1 : Fin 3) * 256 + 1 * (y 1).val = t.val % 8 * 256 + (y 1).val; rw [e1]; omega
  | ⟨2, _⟩ => show win0_0.index t (2 : Fin 3) * 1024 + 1 * (y 2).val = (y 2).val; rw [e2]; omega

theorem iblk1_eq (c : Dev nD) (t : Fin cfg0.N) : (iblk m c 1 t : Vec F S1x2048x1024 .f32) = encBlk m c (batchOf t) := by
  obtain ⟨-, -, -, e0, e1, e2, -⟩ := idx_facts t
  funext y
  unfold iblk encBlk
  rw [View.read_apply]
  show V m c main_arg1 _ = m ((c : Thread nD τ).loc main_arg1) _
  unfold V
  congr 1
  funext a
  apply Fin.ext
  have hy : (y 0).val < 1 := (y 0).isLt
  match a with
  | ⟨0, _⟩ => show win0_1.index t (0 : Fin 3) * 1 + 1 * (y 0).val = t.val / 8; rw [e0]; omega
  | ⟨1, _⟩ => show win0_1.index t (1 : Fin 3) * 2048 + 1 * (y 1).val = (y 1).val; rw [e1]; omega
  | ⟨2, _⟩ => show win0_1.index t (2 : Fin 3) * 1024 + 1 * (y 2).val = (y 2).val; rw [e2]; omega

theorem iblk2_eq (c : Dev nD) (t : Fin cfg0.N) :
    (iblk m c 2 t : Vec F S1024x1024 .f32) = m ((c : Thread nD τ).loc main_arg2) := by
  obtain ⟨-, -, -, -, -, -, e0, e1, -⟩ := idx_facts t
  funext y
  unfold iblk
  rw [View.read_apply]
  show V m c main_arg2 _ = m ((c : Thread nD τ).loc main_arg2) _
  unfold V
  congr 1
  funext a
  apply Fin.ext
  match a with
  | ⟨0, _⟩ => show win0_2.index t (0 : Fin 2) * 1024 + 1 * (y 0).val = (y 0).val; rw [e0]; omega
  | ⟨1, _⟩ => show win0_2.index t (1 : Fin 2) * 1024 + 1 * (y 1).val = (y 1).val; rw [e1]; omega

theorem iblk3_eq (c : Dev nD) (t : Fin cfg0.N) :
    (iblk m c 3 t : Vec F S1024 .f32) = m ((c : Thread nD τ).loc main_arg3) := by
  obtain ⟨-, -, -, -, -, -, -, -, e0, -⟩ := idx_facts t
  funext y
  unfold iblk
  rw [View.read_apply]
  show V m c main_arg3 _ = m ((c : Thread nD τ).loc main_arg3) _
  unfold V
  congr 1
  funext a
  apply Fin.ext
  match a with
  | ⟨0, _⟩ => show win0_3.index t (0 : Fin 1) * 1024 + 1 * (y 0).val = (y 0).val; rw [e0]; omega

/-! ## The kept buffers -/

/-- The keys of batch `b`: the body's key tile of the batch's encoder block, the weights and the bias. -/
def keysOf (c : Dev nD) (b : Fin 16) : Vec F S2048x1024 .f32 :=
  k0_pay2 (encBlk m c b) (m ((c : Thread nD τ).loc main_arg2)) (m ((c : Thread nD τ).loc main_arg3))

/-- The values of batch `b`: the body's value tile of the batch's encoder block. -/
def valsOf (c : Dev nD) (b : Fin 16) : Vec F S2048x1024 .bf16 := k0_pay3 (encBlk m c b)

/-- After every point the two kept buffers hold the keys and the values of the point's batch. -/
theorem kept (c : Dev nD) : ∀ (n : ℕ) (h : n < cfg0.N),
    (outsAt0 m c n h).2.2.1 = keysOf m c (batchOf ⟨n, h⟩) ∧ (outsAt0 m c n h).2.2.2 = valsOf m c (batchOf ⟨n, h⟩)
  | 0, h => by
    rw [outsAt0_A m c ⟨0, h⟩ rfl]
    dsimp only
    rw [Piece.keysA, Piece.valsA, iblk1_eq, iblk2_eq, iblk3_eq]
    exact ⟨rfl, rfl⟩
  | n + 1, h => by
    by_cases h0 : (n + 1) % 8 = 0
    · rw [outsAt0_A m c ⟨n + 1, h⟩ h0]
      dsimp only
      rw [Piece.keysA, Piece.valsA, iblk1_eq, iblk2_eq, iblk3_eq]
      exact ⟨rfl, rfl⟩
    · rw [outsAt0_B m c ⟨n + 1, h⟩ h0]
      dsimp only
      unfold sout0_B_0 sout0_B_1
      have hb : batchOf ⟨n + 1, h⟩ = batchOf ⟨n, Nat.lt_of_succ_lt h⟩ :=
        Fin.ext (by show (n + 1) / 8 = n / 8; omega)
      rw [hb]
      exact kept c n (Nat.lt_of_succ_lt h)

/-! ## The output blocks -/

/-- After every point the alignment block holds the alignment tile of the point's decoder tile against its batch's keys, -/
theorem align_at (c : Dev nD) (t : Fin cfg0.N) :
    (outsAt0 m c t.val t.isLt).2.1 = k0_pay5 (decBlk m c t) (keysOf m c (batchOf t)) := by
  by_cases h0 : t.val % 8 = 0
  · rw [outsAt0_A m c t h0]
    dsimp only
    rw [Piece.alignA, iblk0_eq, iblk1_eq, iblk2_eq, iblk3_eq]
    rfl
  · have hN : t.val < 128 := lt_of_lt_of_eq t.isLt N_eq
    have hp := kept m c (t.val - 1) (Nat.lt_of_le_of_lt (Nat.sub_le _ _) t.isLt)
    have hb : batchOf ⟨t.val - 1, Nat.lt_of_le_of_lt (Nat.sub_le _ _) t.isLt⟩ = batchOf t :=
      Fin.ext (by show (t.val - 1) / 8 = t.val / 8; omega)
    rw [outsAt0_B m c t h0]
    dsimp only
    rw [Piece.alignB, iblk0_eq, hp.1, hb]

/-- and the context block the context tile of that alignment and its batch's values. -/
theorem ctx_at (c : Dev nD) (t : Fin cfg0.N) :
    (outsAt0 m c t.val t.isLt).1 = k0_pay6 (decBlk m c t) (keysOf m c (batchOf t)) (valsOf m c (batchOf t)) := by
  by_cases h0 : t.val % 8 = 0
  · rw [outsAt0_A m c t h0]
    dsimp only
    rw [Piece.ctxA, iblk0_eq, iblk1_eq, iblk2_eq, iblk3_eq]
    rfl
  · have hN : t.val < 128 := lt_of_lt_of_eq t.isLt N_eq
    have hp := kept m c (t.val - 1) (Nat.lt_of_le_of_lt (Nat.sub_le _ _) t.isLt)
    have hb : batchOf ⟨t.val - 1, Nat.lt_of_le_of_lt (Nat.sub_le _ _) t.isLt⟩ = batchOf t :=
      Fin.ext (by show (t.val - 1) / 8 = t.val / 8; omega)
    rw [outsAt0_B m c t h0]
    dsimp only
    rw [Piece.ctxB, iblk0_eq, hp.1, hp.2, hb]

end Attn.Carry

end
-- ==== Proof.Spec.lean ====
/-
  Luong attention with a dense key projection, entry by entry, on the extended reals.

  For one batch `b`: the keys are `K[k, e] = ∑ d, enc[b, k, d] · W[d, e] + bias[e]`; a decoder row `x` scores the
  encoder positions by `s[k] = ∑ d, x[d] · K[k, d]`; the alignment is the softmax of the scores along `k`, written
  as both programs compute it, `exp (s[k] − M) / ∑ k', exp (s[k'] − M)` with `M` the maximum of the row (the fold of
  `max` from `⊥`); the context is `∑ k, alignment[k] · enc[b, k, d]`.
  The two result arrays are these row functions read at the decoder row `(b, q)` of the argument arrays.
-/
import Idealize.ShloMosaic.PureOps.Ideal
import Idealize.ShloMosaic.Lib.ValueIdx

noncomputable section

namespace Attn

open Idealize.ShloMosaic Idealize.ShloMosaic.ValueIdx

/-- The projected keys of one batch: row `k` of the encoder block times the weight matrix, plus the bias. -/
def keyRows (enc : Fin 2048 → Fin 1024 → EReal) (W : (⟨2, ![1024, 1024]⟩ : Shape).Idx → EReal)
    (bias : (⟨1, ![1024]⟩ : Shape).Idx → EReal) (k : Fin 2048) (e : Fin 1024) : EReal :=
  (∑ d : Fin 1024, enc k d * W (ix2 d e)) + bias (ix1 e)

/-- The scores of one decoder row against every key row. -/
def scoreRow (x : Fin 1024 → EReal) (ks : Fin 2048 → Fin 1024 → EReal) (k : Fin 2048) : EReal :=
  ∑ d : Fin 1024, x d * ks k d

/-- The maximum of a row of scores: the fold of `max` from `⊥`. -/
def rowMax (s : Fin 2048 → EReal) : EReal := (Finset.univ : Finset (Fin 2048)).fold max ⊥ s

/-- The softmax of a row of scores, shifted by the row's maximum. -/
def softmaxRow (s : Fin 2048 → EReal) (k : Fin 2048) : EReal :=
  Ideal.div (Ideal.exp (s k - rowMax s)) (∑ k' : Fin 2048, Ideal.exp (s k' - rowMax s))

/-- The alignment row of a decoder row against the keys. -/
def alignRow (x : Fin 1024 → EReal) (ks : Fin 2048 → Fin 1024 → EReal) : Fin 2048 → EReal :=
  softmaxRow (scoreRow x ks)

/-- The context row: the alignment-weighted sum of the value rows. -/
def ctxRow (a : Fin 2048 → EReal) (vs : Fin 2048 → Fin 1024 → EReal) (d : Fin 1024) : EReal :=
  ∑ k : Fin 2048, a k * vs k d

variable (dec enc : (⟨3, ![16, 2048, 1024]⟩ : Shape).Idx → EReal) (W : (⟨2, ![1024, 1024]⟩ : Shape).Idx → EReal)
  (bias : (⟨1, ![1024]⟩ : Shape).Idx → EReal)

/-- Batch `b` of the encoder array as rows. -/
def encRows (b : Fin 16) (k : Fin 2048) (d : Fin 1024) : EReal := enc (ix3 b k d)

/-- The alignment array: at `(b, q, k)` the softmax, along `k`, of decoder row `(b, q)` scored against batch `b`'s keys. -/
def alignment : (⟨3, ![16, 2048, 2048]⟩ : Shape).Idx → EReal := fun i =>
  alignRow (fun d => dec (ix3 (i 0) (i 1) d)) (keyRows (encRows enc (i 0)) W bias) (i 2)

/-- The context array: at `(b, q, d)` the alignment row `(b, q)` applied to batch `b`'s encoder rows. -/
def context : (⟨3, ![16, 2048, 1024]⟩ : Shape).Idx → EReal := fun i =>
  ctxRow (alignRow (fun d => dec (ix3 (i 0) (i 1) d)) (keyRows (encRows enc (i 0)) W bias)) (encRows enc (i 0)) (i 2)

end Attn

end
-- ==== Proof.LibPlainDot.lean ====
/-
  A plain matrix product read at an entry.

  Both programs multiply matrices with the dimension numbers "contract the left operand's columns with the
  right operand's rows, no batch axis" (`DotDims.plain M K N`). On the extended reals the kernel's matrix unit
  accumulating into zero and the host's `dot_general` are the same contraction; this module reads either at the
  entry `(p, q)` as the textbook sum `∑ k, lhs (p, k) * rhs (k, q)` over the `K` contracted coordinates, for any
  extents. The contraction index of the library is a one-coordinate index; the bijection with `Fin K` moves the sum.
-/
import Idealize.ShloMosaic.PureOps.Ideal.Laws
import Idealize.ShloMosaic.Lib.ValueIdx

namespace Gcn.Lib

open Idealize.ShloMosaic Idealize.ShloMosaic.ValueIdx

variable {M K N : ℕ}

/-- The left operand's index at output entry `(p, q)` and contracted coordinate `k` is `(p, k)`. -/
theorem plain_lhsIdx (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single (cl := 1) rfl _ _).trans hk

/-- The right operand's index at output entry `(p, q)` and contracted coordinate `k` is `(k, q)`. -/
theorem plain_rhsIdx (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single (cr := 0) rfl _ _).trans hk
  | ⟨1, _⟩ => rfl

/-- The contraction of a plain product at entry `(p, q)` is the sum over the `K` contracted coordinates. -/
theorem plain_contraction (lhs : (⟨2, ![M, K]⟩ : Shape).Idx → EReal) (rhs : (⟨2, ![K, N]⟩ : Shape).Idx → EReal)
    (p : Fin M) (q : Fin N) :
    ∑ k : (DotDims.plain M K N).contr.Idx,
        lhs ((DotDims.plain M K N).lhsIdx (ix2 p q) k) * rhs ((DotDims.plain M K N).rhsIdx (ix2 p q) k)
      = ∑ k : Fin K, lhs (ix2 p k) * rhs (ix2 k q) := by
  rw [← Equiv.sum_comp (contrEquiv1 (DotDims.plain M K N) K rfl rfl).symm]
  refine Finset.sum_congr rfl fun k _ => ?_
  rw [plain_lhsIdx, plain_rhsIdx]

/-- The kernel's matrix unit accumulating into the zero vector, read at entry `(p, q)`. -/
theorem plain_matmul_zero_apply {φ₁ φ₂ : FTy} (lhs : FVec Ideal ⟨2, ![M, K]⟩ φ₁) (rhs : FVec Ideal ⟨2, ![K, N]⟩ φ₂)
    (prec : Option ContractPrecision) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) :=
  (Ideal.matmul_constant_zero_apply (DotDims.plain M K N) prec lhs rhs (ix2 p q)).trans (plain_contraction lhs rhs p q)

/-- The host's `dot_general`, read at entry `(p, q)`: the same sum. -/
theorem plain_dotGeneral_apply {φ₁ φ₂ : FTy} (lhs : FVec Ideal ⟨2, ![M, K]⟩ φ₁) (rhs : FVec Ideal ⟨2, ![K, N]⟩ φ₂)
    (prec : Option ContractPrecision) (sched : HostSchedule) (p : Fin M) (q : Fin N) :
    FloatOps.dotGeneral (DotDims.plain M K N) prec sched lhs rhs (ix2 p q)
      = ∑ k : Fin K, lhs (ix2 p k) * rhs (ix2 k q) :=
  (Ideal.dotGeneral_apply (DotDims.plain M K N) prec sched lhs rhs (ix2 p q)).trans (plain_contraction lhs rhs p q)

end Gcn.Lib
-- ==== Proof.LibTransposedDot.lean ====
/-
  A matrix product whose right operand is contracted on its LAST axis, read at an entry.

  The dimension numbers "contract the left operand's columns with the right operand's columns, no batch axis"
  (`DotDims.transposedRhs M K N`: an `M × K` matrix against an `N × K` one) give, on the extended reals and
  into a zero accumulator, the entry `(p, q) ↦ ∑ k, lhs (p, k) * rhs (q, k)`: the product with the right
  operand's transpose. The contraction index of the library is a one-coordinate index; the bijection with
  `Fin K` moves the sum.
-/
import Idealize.ShloMosaic.PureOps.Ideal.Laws
import Idealize.ShloMosaic.Lib.ValueIdx

namespace LinkLoss

open Idealize.ShloMosaic Idealize.ShloMosaic.ValueIdx

variable {M K N : ℕ}

/-- The left operand's index at output entry `(p, q)` and contracted coordinate `k` is `(p, k)`. -/
theorem transposed_lhsIdx (p : Fin M) (q : Fin N) (k : Fin K) :
    (DotDims.transposedRhs M K N).lhsIdx (ix2 p q) ((contrEquiv1 (DotDims.transposedRhs M K N) K rfl rfl).symm k)
      = ix2 p k := by
  have hk := contrEquiv1_symm_val (DotDims.transposedRhs M K N) K rfl rfl k
  funext a
  apply Fin.ext
  match a with
  | ⟨0, _⟩ => rfl
  | ⟨1, _⟩ => exact ((DotDims.transposedRhs M K N).lhsIdx_val_of_single (cl := 1) rfl _ _).trans hk

/-- The right operand's index at output entry `(p, q)` and contracted coordinate `k` is `(q, k)`. -/
theorem transposed_rhsIdx (p : Fin M) (q : Fin N) (k : Fin K) :
    (DotDims.transposedRhs M K N).rhsIdx (ix2 p q) ((contrEquiv1 (DotDims.transposedRhs M K N) K rfl rfl).symm k)
      = ix2 q k := by
  have hk := contrEquiv1_symm_val (DotDims.transposedRhs M K N) K rfl rfl k
  funext a
  apply Fin.ext
  match a with
  | ⟨0, _⟩ => rfl
  | ⟨1, _⟩ => exact ((DotDims.transposedRhs M K N).rhsIdx_val_of_single (cr := 1) rfl _ _).trans hk

/-- The matrix unit accumulating into the zero vector, read at entry `(p, q)`. -/
theorem transposed_matmul_zero_apply {φ₁ φ₂ : FTy} (lhs : FVec Ideal ⟨2, ![M, K]⟩ φ₁) (rhs : FVec Ideal ⟨2, ![N, K]⟩ φ₂)
    (prec : Option ContractPrecision) (p : Fin M) (q : Fin N) :
    FloatOps.matmul (DotDims.transposedRhs M K N) prec lhs rhs (constant ⟨2, ![M, N]⟩ .f32 0x00000000#32) (ix2 p q)
      = ∑ k : Fin K, lhs (ix2 p k) * rhs (ix2 q k) := by
  refine (Ideal.matmul_constant_zero_apply (DotDims.transposedRhs M K N) prec lhs rhs (ix2 p q)).trans ?_
  rw [← Equiv.sum_comp (contrEquiv1 (DotDims.transposedRhs M K N) K rfl rfl).symm]
  refine Finset.sum_congr rfl fun k _ => ?_
  rw [transposed_lhsIdx, transposed_rhsIdx]

end LinkLoss
-- ==== Proof.LibRowOps.lean ====
/-
  Row-wise reductions of an `[a, b]` vector and the keepdims column forms, read at an index.

  A kernel body that normalises each row (a softmax, a log-softmax, a layer norm) reduces its `[a, b]` block along
  axis 1 into `[a]`, recasts that to the column `[a, 1]` and broadcasts the column back over `[a, b]`. On the
  extended reals: the `maximumf` reduction at row `r` is the fold of `max` from `⊥` over the row's `b` entries
  (its accumulator pattern is `-∞`), the `add` reduction is the row's sum, the cast reads `(r, 0) ↦ r`, and the
  broadcast reads `(r, c) ↦ (r, 0)`. The host's one-axis `reduce` with a `maximum` body is the same fold from its
  initial value.
-/
import Idealize.ShloMosaic.PureOps.Ideal.Laws
import Idealize.ShloMosaic.Lib.ValueIdx
import Idealize.ShloMosaic.Lib.Pipeline.Value

namespace Gcn.Lib

open Idealize.ShloMosaic Idealize.ShloMosaic.ValueIdx

variable {a b : ℕ}

/-- The f32 pattern of `-∞` denotes `⊥`. -/
theorem ofBits_neg_inf_f32 : Ideal.ofBits .f32 0xFF800000#32 = ⊥ := by simp [Ideal.ofBits, Ideal.ieee]

/-- Row `r` with the column coordinate `k` put back is the entry `(r, k)`. -/
theorem lift_row (h : Shape.Reduces ⟨2, ![a, b]⟩ [1] ⟨1, ![a]⟩) (r : Fin a) (k : Fin b) :
    h.lift (ix1 r) k = ix2 r k := by
  funext d
  apply Fin.ext
  match d with
  | ⟨0, h0⟩ =>
    show h.liftVal (ix1 r) k.val ⟨0, h0⟩ = r.val
    unfold Shape.Reduces.liftVal
    split
    · next hc => exact absurd hc Nat.zero_ne_one
    · split
      · rfl
      · next hlt => exact absurd Nat.zero_lt_one hlt
  | ⟨1, h1⟩ =>
    show h.liftVal (ix1 r) k.val ⟨1, h1⟩ = k.val
    unfold Shape.Reduces.liftVal
    split
    · rfl
    · next hc => exact absurd rfl hc

/-- A kernel's `multi_reduction <maximumf>` along axis 1 from the `-∞` accumulator, at row `r`: the fold of `max`
    from `⊥` over the row. -/
theorem rowMax_apply (v : FVec Ideal ⟨2, ![a, b]⟩ .f32) (h : Shape.Reduces ⟨2, ![a, b]⟩ [1] ⟨1, ![a]⟩)
    (hφ : FKind.Formats .f32) (hacc : (0xFF800000#32 : BitVec 32) = FKind.maximumf.neutral .f32 hφ) (r : Fin a) :
    multiReduction .maximumf [1] ⟨1, ![a]⟩ v 0xFF800000#32 h hφ hacc (ix1 r)
      = (Finset.univ : Finset (Fin b)).fold max ⊥ (fun k => v (ix2 r k)) := by
  refine (Ideal.multiReduction_maximumf_single v 0xFF800000#32 h hφ hacc (ix1 r)).trans ?_
  show (Finset.univ : Finset (Fin b)).fold max (Ideal.ofBits .f32 0xFF800000#32) (v ∘ h.lift (ix1 r)) = _
  rw [ofBits_neg_inf_f32]
  exact congrArg (fun f => (Finset.univ : Finset (Fin b)).fold max ⊥ f) (funext fun k => congrArg v (lift_row h r k))

/-- A kernel's `multi_reduction <add>` along axis 1, at row `r`: the row's sum. -/
theorem rowSum_apply (v : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (r : Fin a) :
    multiReduction .add [1] ⟨1, ![a]⟩ v 0x00000000#32 h hφ hacc (ix1 r) = ∑ k : Fin b, v (ix2 r k) := by
  refine (Ideal.multiReduction_add_single v 0x00000000#32 h hφ hacc (ix1 r)).trans ?_
  exact Finset.sum_congr rfl fun k _ => congrArg v (lift_row h r k)

/-- The host's one-axis `reduce` with a `maximum` body along axis 1, at row `r`: the fold of `max` from the
    initial value over the row. -/
theorem hostRowMax_apply {u : Shape} (x : (⟨2, ![a, b]⟩ : Shape).Idx → EReal) (init : u.Idx → EReal)
    (h' : Shape.ReducesTo ⟨2, ![a, b]⟩ [1] ⟨1, ![a]⟩) (h : Shape.Reduces ⟨2, ![a, b]⟩ [1] ⟨1, ![a]⟩) (hu : 0 < u.numel)
    (r : Fin a) :
    Host.reduce (FloatOps.maximumf (F := Ideal) (φ := .f32)) x init h' hu (ix1 r)
      = (Finset.univ : Finset (Fin b)).fold max (init (Shape.Idx.first hu)) (fun k => x (ix2 r k)) := by
  refine (Host.reduce_eq_fold_single (FloatOps.maximumf (F := Ideal) (φ := .f32)) x init h' h hu (ix1 r)).trans ?_
  show (Finset.univ : Finset (Fin b)).fold max (init (Shape.Idx.first hu)) (x ∘ h.lift (ix1 r)) = _
  exact congrArg (fun f => (Finset.univ : Finset (Fin b)).fold max (init (Shape.Idx.first hu)) f)
    (funext fun k => congrArg x (lift_row h r k))

/-- An `[a]` vector cast to the column `[a, 1]` reads, at `(r, u)`, the operand at `r`. -/
theorem shapeCast_a_a1_apply {α : Type} (x : (⟨1, ![a]⟩ : Shape).Idx → α) (h : (⟨1, ![a]⟩ : Shape).ShapeCasts ⟨2, ![a, 1]⟩)
    (r : Fin a) (u : Fin 1) : shapeCast ⟨2, ![a, 1]⟩ x h (ix2 r u) = x (ix1 r) :=
  shapeCast_apply x h _ _ (by
    have hu : u.val = 0 := by omega
    rw [Shape.rowMajor_val_two, Shape.rowMajor_val_one]
    show r.val = r.val * 1 + u.val
    rw [hu, Nat.mul_one, Nat.add_zero])

/-- A column `[a, 1]` broadcast over `[a, b]` reads, at `(r, c)`, the column's entry of row `r`. -/
theorem broadcastTo_a1_ab_apply {α : Type} (v : (⟨2, ![a, 1]⟩ : Shape).Idx → α) (h : (⟨2, ![a, 1]⟩ : Shape).Broadcasts ⟨2, ![a, b]⟩)
    (r : Fin a) (c : Fin b) : broadcastTo ⟨2, ![a, b]⟩ v h (ix2 r c) = v (ix2 r (0 : Fin 1)) := by
  refine broadcastTo_apply v h (ix2 r c) (ix2 r (0 : Fin 1)) fun ax => ?_
  match ax with
  | ⟨0, _⟩ =>
    show r.val = if a = 1 then 0 else r.val
    split
    · have := r.isLt; omega
    · rfl
  | ⟨1, _⟩ => rfl

end Gcn.Lib
-- ==== Proof.Tiles.lean ====
/-
  What the kernel body's arithmetic computes, entry by entry, on the extended reals.

  The body holds, per grid point, a decoder tile of 256 rows, the encoder block of the batch (2048 rows), the weight
  matrix and the bias. Its stores are five pure functions of those:
    * the key tile: encoder block times weight matrix plus the bias row, `Attn.keyRows` of the block's rows;
    * the value tile: the encoder block itself (a change of float format is the identity here);
    * the alignment tile: each decoder row scored against the key rows (a product contracted on both operands'
      last axes), then the row softmax — `Attn.alignRow`;
    * the same tile given a leading unit axis for the store;
    * the context tile: the alignment tile times the value tile — `Attn.ctxRow`.
-/
import proofs.«172299_j24086176596734_2_alg».proof.Proof.Gen.KernelIdeal.Skeleton
import proofs.«172299_j24086176596734_2_alg».proof.Proof.Spec
import proofs.«172299_j24086176596734_2_alg».proof.Proof.LibPlainDot
import proofs.«172299_j24086176596734_2_alg».proof.Proof.LibTransposedDot
import proofs.«172299_j24086176596734_2_alg».proof.Proof.LibRowOps
import Idealize.ShloMosaic.Lib.ValueLayout
import Idealize.ShloMosaic.Lib.Pipeline.Value
import Idealize.ShloMosaic.PureOps.Ideal.Laws

noncomputable section

namespace Attn.Tile

open Cert.KernelIdeal Cert.KernelIdeal.Gen Idealize.ShloMosaic Idealize.ShloMosaic.ValueIdx

/-! ## The three contractions' dimension records are the textbook ones -/

theorem keysDims : dot_S2048x1024_S1024x1024_S2048x1024_1_0_0_1_n_n = DotDims.plain 2048 1024 1024 := rfl
theorem scoreDims : dot_S256x1024_S2048x1024_S256x2048_1_1_0_0_n_n = DotDims.transposedRhs 256 1024 2048 := rfl
theorem ctxDims : dot_S256x2048_S2048x1024_S256x1024_1_0_0_1_n_n = DotDims.plain 256 2048 1024 := rfl

/-! ## The key and value tiles -/

/-- The key tile at `(k, e)`: row `k` of the encoder block against column `e` of the weights, plus `bias e`. -/
theorem keys_apply (x1 : Vec Ideal S1x2048x1024 .f32) (x2 : Vec Ideal S1024x1024 .f32) (x3 : Vec Ideal S1024 .f32)
    (k : Fin 2048) (e : Fin 1024) :
    k0_pay2 (F := Ideal) x1 x2 x3 (ix2 k e) = Attn.keyRows (fun k d => x1 (ix3 (0 : Fin 1) k d)) x2 x3 k e := by
  unfold k0_pay2 k0_pay1 Attn.keyRows
  dsimp only
  rw [shapeCast_self, addf_apply, keysDims, broadcastTo_1b_ab_apply, shapeCast_a_1a_apply]
  refine congrArg (· + x3 (ix1 e)) ?_
  refine (Gcn.Lib.plain_matmul_zero_apply _ _ none k e).trans ?_
  exact Finset.sum_congr rfl fun d _ => by rw [truncf_apply, truncf_apply, shapeCast_1ab_ab_apply]

/-- The value tile at `(k, d)`: the encoder block's entry. -/
theorem vals_apply (x1 : Vec Ideal S1x2048x1024 .f32) (k : Fin 2048) (d : Fin 1024) :
    k0_pay3 (F := Ideal) x1 (ix2 k d) = x1 (ix3 (0 : Fin 1) k d) := by
  unfold k0_pay3 k0_pay1
  dsimp only
  rw [shapeCast_self, truncf_apply, shapeCast_1ab_ab_apply]

/-! ## The score tile and its row softmax -/

/-- The score tile: the decoder tile against the key tile, contracted on both last axes. -/
def scoreTile (x0 : Vec Ideal S1x256x1024 .f32) (ks : Vec Ideal S2048x1024 .f32) : FVec Ideal S256x2048 .f32 :=
  matmul (φ₁ := .f32) (φ₂ := .f32) dot_S256x1024_S2048x1024_S256x2048_1_1_0_0_n_n (some .fp32)
    (shapeCast S256x1024 x0 shapeCasts_S1x256x1024_S256x1024) ks (constant S256x2048 .f32 0x00000000#32)

theorem scoreTile_apply (x0 : Vec Ideal S1x256x1024 .f32) (ks : Vec Ideal S2048x1024 .f32) (q : Fin 256) (k : Fin 2048) :
    scoreTile x0 ks (ix2 q k) = Attn.scoreRow (fun d => x0 (ix3 (0 : Fin 1) q d)) (fun k d => ks (ix2 k d)) k := by
  unfold scoreTile Attn.scoreRow
  rw [scoreDims]
  refine (LinkLoss.transposed_matmul_zero_apply (φ₁ := .f32) (φ₂ := .f32) _ _ _ q k).trans ?_
  exact Finset.sum_congr rfl fun d _ => by rw [shapeCast_1ab_ab_apply]

/-- Each row's maximum, repeated along the row. -/
def maxTile (s : FVec Ideal S256x2048 .f32) : FVec Ideal S256x2048 .f32 :=
  broadcastTo S256x2048 (shapeCast S256x1 (multiReduction .maximumf [1] S256 s 0xFF800000#32 reduces_S256x2048_S256 (.inl rfl) rfl)
    shapeCasts_S256_S256x1) broadcasts_S256x1_S256x2048

/-- The shifted exponentials. -/
def expTile (s : FVec Ideal S256x2048 .f32) : FVec Ideal S256x2048 .f32 := exp (subf s (maxTile s))

/-- Each row's sum of exponentials, repeated along the row. -/
def sumTile (s : FVec Ideal S256x2048 .f32) : FVec Ideal S256x2048 .f32 :=
  broadcastTo S256x2048 (shapeCast S256x1 (multiReduction .add [1] S256 (expTile s) 0x00000000#32 reduces_S256x2048_S256 (.inl rfl) rfl)
    shapeCasts_S256_S256x1) broadcasts_S256x1_S256x2048

theorem maxTile_apply (s : FVec Ideal S256x2048 .f32) (q : Fin 256) (k : Fin 2048) :
    maxTile s (ix2 q k) = Attn.rowMax (fun k => s (ix2 q k)) := by
  unfold maxTile Attn.rowMax
  rw [Gcn.Lib.broadcastTo_a1_ab_apply, Gcn.Lib.shapeCast_a_a1_apply]
  exact Gcn.Lib.rowMax_apply s _ _ _ q

theorem expTile_apply (s : FVec Ideal S256x2048 .f32) (q : Fin 256) (k : Fin 2048) :
    expTile s (ix2 q k) = Ideal.exp (s (ix2 q k) - Attn.rowMax (fun k => s (ix2 q k))) := by
  show Ideal.exp (s (ix2 q k) - maxTile s (ix2 q k)) = _
  rw [maxTile_apply]

theorem sumTile_apply (s : FVec Ideal S256x2048 .f32) (q : Fin 256) (k : Fin 2048) :
    sumTile s (ix2 q k) = ∑ k' : Fin 2048, Ideal.exp (s (ix2 q k') - Attn.rowMax (fun k => s (ix2 q k))) := by
  unfold sumTile
  rw [Gcn.Lib.broadcastTo_a1_ab_apply, Gcn.Lib.shapeCast_a_a1_apply]
  refine (Gcn.Lib.rowSum_apply (expTile s) _ _ _ q).trans ?_
  exact Finset.sum_congr rfl fun k' _ => expTile_apply s q k'

/-- The alignment tile is the row softmax of the score tile. -/
theorem pay4_eq (x0 : Vec Ideal S1x256x1024 .f32) (ks : Vec Ideal S2048x1024 .f32) :
    k0_pay4 (F := Ideal) x0 ks = divf (expTile (scoreTile x0 ks)) (sumTile (scoreTile x0 ks)) := by
  unfold k0_pay4 sumTile expTile maxTile scoreTile
  rfl

/-- The alignment tile at `(q, k)`: decoder row `q` scored against the key rows, softmaxed along `k`. -/
theorem align_apply (x0 : Vec Ideal S1x256x1024 .f32) (ks : Vec Ideal S2048x1024 .f32) (q : Fin 256) (k : Fin 2048) :
    k0_pay4 (F := Ideal) x0 ks (ix2 q k)
      = Attn.alignRow (fun d => x0 (ix3 (0 : Fin 1) q d)) (fun k d => ks (ix2 k d)) k := by
  have hrow : (fun k => scoreTile x0 ks (ix2 q k))
      = Attn.scoreRow (fun d => x0 (ix3 (0 : Fin 1) q d)) (fun k d => ks (ix2 k d)) :=
    funext fun k => scoreTile_apply x0 ks q k
  rw [pay4_eq, divf_apply, expTile_apply, sumTile_apply]
  unfold Attn.alignRow Attn.softmaxRow
  rw [← hrow]

/-- The stored alignment tile carries a leading unit axis. -/
theorem alignStore_apply (x0 : Vec Ideal S1x256x1024 .f32) (ks : Vec Ideal S2048x1024 .f32) (u : Fin 1) (q : Fin 256)
    (k : Fin 2048) :
    k0_pay5 (F := Ideal) x0 ks (ix3 u q k)
      = Attn.alignRow (fun d => x0 (ix3 (0 : Fin 1) q d)) (fun k d => ks (ix2 k d)) k := by
  unfold k0_pay5
  rw [shapeCast_ab_1ab_apply, align_apply]

/-! ## The context tile -/

/-- The stored context tile at `(0, q, d)`: alignment row `q` applied to column `d` of the value tile. -/
theorem ctxStore_apply (x0 : Vec Ideal S1x256x1024 .f32) (ks : Vec Ideal S2048x1024 .f32) (vs : Vec Ideal S2048x1024 .bf16)
    (u : Fin 1) (q : Fin 256) (d : Fin 1024) :
    k0_pay6 (F := Ideal) x0 ks vs (ix3 u q d)
      = Attn.ctxRow (Attn.alignRow (fun d => x0 (ix3 (0 : Fin 1) q d)) (fun k d => ks (ix2 k d))) (fun k d => vs (ix2 k d)) d := by
  unfold k0_pay6 Attn.ctxRow
  dsimp only
  rw [shapeCast_ab_1ab_apply, ctxDims]
  refine (Gcn.Lib.plain_matmul_zero_apply (φ₁ := .bf16) (φ₂ := .bf16) _ _ none q d).trans ?_
  exact Finset.sum_congr rfl fun k _ => by rw [truncf_apply, align_apply]

end Attn.Tile

end
-- ==== Proof.KernelValue.lean ====
/-
  The kernel's two result arrays, after its run, are the attention function of its arguments.

  Point `t` of the grid writes back one block of each result: rows `256·(t % 8) … 256·(t % 8) + 255` of batch `t / 8`.
  What it writes is the body's alignment and context tiles of its decoder tile against its batch's keys and values;
  read entry by entry those are `Attn.alignment` and `Attn.context` of the argument arrays at the block's own
  entries. The 128 blocks tile each array (entry `(b, r, ·)` lies in the block of point `8·b + r / 256`), so after the
  run each array is that function everywhere.
-/
import proofs.«172299_j24086176596734_2_alg».proof.Proof.Carry
import proofs.«172299_j24086176596734_2_alg».proof.Proof.Tiles

noncomputable section

namespace Attn.Kernel

open Cert.KernelIdeal Cert.KernelIdeal.Gen Cert.KernelIdeal.Value Idealize.ShloMosaic Idealize.ShloMosaic.ValueIdx
open Idealize.ShloMosaic.TcCoe Idealize.SL.Sem
open Idealize.ShloMosaic.Pipeline (Dat)
open Attn.Carry

variable (m : (ℓ : Loc nD τ sig) → Buf (Elt Ideal) ℓ) (ρ : Dev nD → PrngReg)

/-- The alignment of the argument arrays, as contents of the second result array. -/
abbrev alignArr (c : Dev nD) : Buf (Elt Ideal) ((c : Thread nD τ).loc main_v0_1) :=
  Attn.alignment (m ((c : Thread nD τ).loc main_arg0)) (m ((c : Thread nD τ).loc main_arg1)) (m ((c : Thread nD τ).loc main_arg2)) (m ((c : Thread nD τ).loc main_arg3))

/-- The context of the argument arrays, as contents of the first result array. -/
abbrev ctxArr (c : Dev nD) : Buf (Elt Ideal) ((c : Thread nD τ).loc main_v0_0) :=
  Attn.context (m ((c : Thread nD τ).loc main_arg0)) (m ((c : Thread nD τ).loc main_arg1)) (m ((c : Thread nD τ).loc main_arg2)) (m ((c : Thread nD τ).loc main_arg3))

/-! ## A batch's keys and values, and a point's decoder tile, by rows -/

theorem keys_rows (c : Dev nD) (b : Fin 16) :
    (fun (k : Fin 2048) (d : Fin 1024) => keysOf m c b (ix2 k d))
      = Attn.keyRows (Attn.encRows (m ((c : Thread nD τ).loc main_arg1)) b) (m ((c : Thread nD τ).loc main_arg2)) (m ((c : Thread nD τ).loc main_arg3)) := by
  funext k d
  unfold keysOf
  exact Attn.Tile.keys_apply _ _ _ k d

theorem vals_rows (c : Dev nD) (b : Fin 16) :
    (fun (k : Fin 2048) (d : Fin 1024) => valsOf m c b (ix2 k d)) = Attn.encRows (m ((c : Thread nD τ).loc main_arg1)) b := by
  funext k d
  unfold valsOf
  exact Attn.Tile.vals_apply _ k d

/-! ## The alignment array -/

theorem flushed5_eq (c : Dev nD) (t : Fin cfg0.N) :
    (dats m 0 c).flushed 5 t = ((cfg0.win 5).blk t).view.read (Elt Ideal) (alignArr m c) := by
  obtain ⟨-, -, -, -, -, -, -, -, -, -, -, -, e0, e1, e2⟩ := idx_facts t
  rw [flushed5, align_at]
  funext y
  rw [View.read_apply]
  obtain ⟨u, q, k, rfl⟩ : ∃ (u : Fin 1) (q : Fin 256) (k : Fin 2048), y = ix3 u q k :=
    ⟨y 0, y 1, y 2, eq_ix3 (n0 := 1) (n1 := 256) (n2 := 2048) y⟩
  have hemb : ((cfg0.win 5).blk t).view.emb (ix3 u q k) = ix3 (batchOf t) (rowOf t q) k := by
    funext a
    apply Fin.ext
    have hu : u.val < 1 := u.isLt
    match a with
    | ⟨0, _⟩ => show win0_5.index t (0 : Fin 3) * 1 + 1 * u.val = t.val / 8; rw [e0]; omega
    | ⟨1, _⟩ => show win0_5.index t (1 : Fin 3) * 256 + 1 * q.val = t.val % 8 * 256 + q.val; rw [e1]; omega
    | ⟨2, _⟩ => show win0_5.index t (2 : Fin 3) * 2048 + 1 * k.val = k.val; rw [e2]; omega
  rw [hemb]
  show k0_pay5 (decBlk m c t) (keysOf m c (batchOf t)) (ix3 u q k) = _
  rw [Attn.Tile.alignStore_apply, keys_rows]
  rfl

theorem mem_blk5 (t : Fin cfg0.N) (i : S16x2048x2048.Idx) :
    i ∈ ((cfg0.win 5).blk t).view.set ↔ ∀ a : Fin 3, win0_5.index t a * S1x256x2048.size a ≤ (i a).val
      ∧ (i a).val < win0_5.index t a * S1x256x2048.size a + S1x256x2048.size a := by
  show i ∈ ((View.whole main_v0_1).slice (win0_5.rect t)).set ↔ _
  rw [View.set_slice_whole, Rect.mem_set_unit]
  exact Iff.rfl

theorem cover5 (i : S16x2048x2048.Idx) :
    ∃ t : Fin cfg0.N, (cfg0.win 5).flush t = true ∧ i ∈ ((cfg0.win 5).blk t).view.set := by
  have h0 : (i 0).val < 16 := (i 0).isLt
  have h1 : (i 1).val < 2048 := (i 1).isLt
  have h2 : (i 2).val < 2048 := (i 2).isLt
  obtain ⟨t, tv⟩ : ∃ t : Fin cfg0.N, t.val = (i 0).val * 8 + (i 1).val / 256 :=
    ⟨⟨(i 0).val * 8 + (i 1).val / 256, lt_of_lt_of_eq (by omega : (i 0).val * 8 + (i 1).val / 256 < 128) N_eq.symm⟩, rfl⟩
  obtain ⟨-, -, -, -, -, -, -, -, -, -, -, -, e0, e1, e2⟩ := idx_facts t
  refine ⟨t, flush0_5 t, ?_⟩
  rw [mem_blk5]
  intro a
  match a with
  | ⟨0, _⟩ =>
    show win0_5.index t (0 : Fin 3) * 1 ≤ (i 0).val ∧ (i 0).val < win0_5.index t (0 : Fin 3) * 1 + 1
    rw [e0, tv]; omega
  | ⟨1, _⟩ =>
    show win0_5.index t (1 : Fin 3) * 256 ≤ (i 1).val ∧ (i 1).val < win0_5.index t (1 : Fin 3) * 256 + 256
    rw [e1, tv]; omega
  | ⟨2, _⟩ =>
    show win0_5.index t (2 : Fin 3) * 2048 ≤ (i 2).val ∧ (i 2).val < win0_5.index t (2 : Fin 3) * 2048 + 2048
    rw [e2]; omega

theorem final5 (c : Dev nD) : (dats m 0 c).arrAt 5 cfg0.N = alignArr m c :=
  (dats m 0 c).arrAt_eq_of_cover 5 (alignArr m c) (fun t _ => flushed5_eq m c t) cover5

/-! ## The context array -/

theorem flushed4_eq (c : Dev nD) (t : Fin cfg0.N) :
    (dats m 0 c).flushed 4 t = ((cfg0.win 4).blk t).view.read (Elt Ideal) (ctxArr m c) := by
  obtain ⟨-, -, -, -, -, -, -, -, -, e0, e1, e2, -⟩ := idx_facts t
  rw [flushed4, ctx_at]
  funext y
  rw [View.read_apply]
  obtain ⟨u, q, d, rfl⟩ : ∃ (u : Fin 1) (q : Fin 256) (d : Fin 1024), y = ix3 u q d :=
    ⟨y 0, y 1, y 2, eq_ix3 (n0 := 1) (n1 := 256) (n2 := 1024) y⟩
  have hemb : ((cfg0.win 4).blk t).view.emb (ix3 u q d) = ix3 (batchOf t) (rowOf t q) d := by
    funext a
    apply Fin.ext
    have hu : u.val < 1 := u.isLt
    match a with
    | ⟨0, _⟩ => show win0_4.index t (0 : Fin 3) * 1 + 1 * u.val = t.val / 8; rw [e0]; omega
    | ⟨1, _⟩ => show win0_4.index t (1 : Fin 3) * 256 + 1 * q.val = t.val % 8 * 256 + q.val; rw [e1]; omega
    | ⟨2, _⟩ => show win0_4.index t (2 : Fin 3) * 1024 + 1 * d.val = d.val; rw [e2]; omega
  rw [hemb]
  show k0_pay6 (decBlk m c t) (keysOf m c (batchOf t)) (valsOf m c (batchOf t)) (ix3 u q d) = _
  rw [Attn.Tile.ctxStore_apply, keys_rows, vals_rows]
  rfl

theorem mem_blk4 (t : Fin cfg0.N) (i : S16x2048x1024.Idx) :
    i ∈ ((cfg0.win 4).blk t).view.set ↔ ∀ a : Fin 3, win0_4.index t a * S1x256x1024.size a ≤ (i a).val
      ∧ (i a).val < win0_4.index t a * S1x256x1024.size a + S1x256x1024.size a := by
  show i ∈ ((View.whole main_v0_0).slice (win0_4.rect t)).set ↔ _
  rw [View.set_slice_whole, Rect.mem_set_unit]
  exact Iff.rfl

theorem cover4 (i : S16x2048x1024.Idx) :
    ∃ t : Fin cfg0.N, (cfg0.win 4).flush t = true ∧ i ∈ ((cfg0.win 4).blk t).view.set := by
  have h0 : (i 0).val < 16 := (i 0).isLt
  have h1 : (i 1).val < 2048 := (i 1).isLt
  have h2 : (i 2).val < 1024 := (i 2).isLt
  obtain ⟨t, tv⟩ : ∃ t : Fin cfg0.N, t.val = (i 0).val * 8 + (i 1).val / 256 :=
    ⟨⟨(i 0).val * 8 + (i 1).val / 256, lt_of_lt_of_eq (by omega : (i 0).val * 8 + (i 1).val / 256 < 128) N_eq.symm⟩, rfl⟩
  obtain ⟨-, -, -, -, -, -, -, -, -, e0, e1, e2, -⟩ := idx_facts t
  refine ⟨t, flush0_4 t, ?_⟩
  rw [mem_blk4]
  intro a
  match a with
  | ⟨0, _⟩ =>
    show win0_4.index t (0 : Fin 3) * 1 ≤ (i 0).val ∧ (i 0).val < win0_4.index t (0 : Fin 3) * 1 + 1
    rw [e0, tv]; omega
  | ⟨1, _⟩ =>
    show win0_4.index t (1 : Fin 3) * 256 ≤ (i 1).val ∧ (i 1).val < win0_4.index t (1 : Fin 3) * 256 + 256
    rw [e1, tv]; omega
  | ⟨2, _⟩ =>
    show win0_4.index t (2 : Fin 3) * 1024 ≤ (i 2).val ∧ (i 2).val < win0_4.index t (2 : Fin 3) * 1024 + 1024
    rw [e2]; omega

theorem final4 (c : Dev nD) : (dats m 0 c).arrAt 4 cfg0.N = ctxArr m c :=
  (dats m 0 c).arrAt_eq_of_cover 4 (ctxArr m c) (fun t _ => flushed4_eq m c t) cover4

/-! ## The run, read -/

/-- Every weakly fair execution of the kernel's program terminates with the two result arrays at the attention
    function of the argument arrays, and the arguments unchanged. -/
theorem run : θ_run defs (onTc (τ := τ) (main (F := Ideal))) ⟨m, fun _ => 0, ρ⟩ fun r => ∀ c : Dev nD,
      r.2.mem ((c : Thread nD τ).loc main_v0_0) = ctxArr m c
      ∧ r.2.mem ((c : Thread nD τ).loc main_v0_1) = alignArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (final4 m c), (h c).2.1.trans (final5 m c), (h c).2.2⟩)
    (run_blocks m ρ)

end Attn.Kernel

end
-- ==== Proof.LibReduceLast3.lean ====
/-
  The host's one-axis `reduce` with a `maximum` body along the LAST axis of an `[a, b, c]` array, read at `(p, q)`.

  On the extended reals the reduce is the fold of `max` from its initial value over the `c` entries
  `x (p, q, k)`: the index of the reduced array with the coordinate `k` put back on axis 2 is `(p, q, k)`.
-/
import Idealize.ShloMosaic.PureOps.Ideal.Laws
import Idealize.ShloMosaic.Lib.ValueIdx

namespace LibReduceLast3

open Idealize.ShloMosaic Idealize.ShloMosaic.ValueIdx

variable {a b c : ℕ}

/-- Entry `(p, q)` of the reduced array with the coordinate `k` put back on the last axis is `(p, q, k)`. -/
theorem lift_last (h : Shape.Reduces ⟨3, ![a, b, c]⟩ [2] ⟨2, ![a, b]⟩) (p : Fin a) (q : Fin b) (k : Fin c) :
    h.lift (ix2 p q) k = ix3 p q k := by
  funext d
  apply Fin.ext
  match d with
  | ⟨0, h0⟩ =>
    show h.liftVal (ix2 p q) k.val ⟨0, h0⟩ = p.val
    unfold Shape.Reduces.liftVal
    split
    · next hc => exact absurd hc (show ¬ ((0 : ℕ) = 2) by decide)
    · split
      · rfl
      · next hlt => exact absurd (by decide : (0 : ℕ) < 2) hlt
  | ⟨1, h1⟩ =>
    show h.liftVal (ix2 p q) k.val ⟨1, h1⟩ = q.val
    unfold Shape.Reduces.liftVal
    split
    · next hc => exact absurd hc (show ¬ ((1 : ℕ) = 2) by decide)
    · split
      · rfl
      · next hlt => exact absurd (by decide : (1 : ℕ) < 2) hlt
  | ⟨2, h2⟩ =>
    show h.liftVal (ix2 p q) k.val ⟨2, h2⟩ = k.val
    unfold Shape.Reduces.liftVal
    split
    · rfl
    · next hc => exact absurd rfl hc

/-- The host's `reduce` with a `maximum` body along the last axis, at `(p, q)`: the fold of `max` from the initial
    value over the entries `x (p, q, k)`. -/
theorem hostMaxLast_apply {u : Shape} (x : (⟨3, ![a, b, c]⟩ : Shape).Idx → EReal) (init : u.Idx → EReal)
    (h' : Shape.ReducesTo ⟨3, ![a, b, c]⟩ [2] ⟨2, ![a, b]⟩) (h : Shape.Reduces ⟨3, ![a, b, c]⟩ [2] ⟨2, ![a, b]⟩)
    (hu : 0 < u.numel) (p : Fin a) (q : Fin b) :
    Host.reduce (FloatOps.maximumf (F := Ideal) (φ := .f32)) x init h' hu (ix2 p q)
      = (Finset.univ : Finset (Fin c)).fold max (init (Shape.Idx.first hu)) (fun k => x (ix3 p q k)) := by
  refine (Host.reduce_eq_fold_single (FloatOps.maximumf (F := Ideal) (φ := .f32)) x init h' h hu (ix2 p q)).trans ?_
  show (Finset.univ : Finset (Fin c)).fold max (init (Shape.Idx.first hu)) (x ∘ h.lift (ix2 p q)) = _
  exact congrArg (fun f => (Finset.univ : Finset (Fin c)).fold max (init (Shape.Idx.first hu)) f)
    (funext fun k => congrArg x (lift_last h p q k))

end LibReduceLast3
-- ==== Proof.RefValue.lean ====
/-
  The reference's two results are the attention function of its arguments.

  The host program projects the keys (`dot_general` of the encoder array with the weights, plus the bias broadcast
  over batch and position), scores every decoder row against its batch's keys (a batched `dot_general` contracting the
  feature axis of both), takes the softmax along the last axis — the row maximum by a `reduce` with a `maximum` body from
  `-∞`, joined once more with `-∞` (a no-op on the extended reals), the shifted exponentials, their row sum from `0`,
  the quotient — and applies the alignment to the encoder rows (a batched `dot_general`). Read one operation at a time
  at an entry `(b, q, ·)`, these are `Attn.alignment` and `Attn.context`.
-/
import proofs.«172299_j24086176596734_2_alg».proof.Proof.Gen.ReferenceIdeal.Read
import proofs.«172299_j24086176596734_2_alg».proof.Proof.Spec
import proofs.«172299_j24086176596734_2_alg».proof.Proof.LibReduceLast3

noncomputable section

namespace Attn.Ref

open Cert.ReferenceIdeal Cert.ReferenceIdeal.Gen Cert.ReferenceIdeal.Read Idealize.ShloMosaic Idealize.ShloMosaic.ValueIdx

variable (x0 x1 : (⟨S16x2048x1024, .f32⟩ : BufTy).Contents (Elt Ideal)) (x2 : (⟨S1024x1024, .f32⟩ : BufTy).Contents (Elt Ideal))
  (x3 : (⟨S1024, .f32⟩ : BufTy).Contents (Elt Ideal))

/-! ## The operations' index maps at an entry written by coordinates -/

theorem lidx_v0 (b : Fin 16) (k : Fin 2048) (e d : Fin 1024) : lidx_main_v0 (ix3 b k e) d = ix3 b k d :=
  funext fun a => by match a with | ⟨0, _⟩ => rfl | ⟨1, _⟩ => rfl | ⟨2, _⟩ => rfl
theorem ridx_v0 (b : Fin 16) (k : Fin 2048) (e d : Fin 1024) : ridx_main_v0 (ix3 b k e) d = ix2 d e :=
  funext fun a => by match a with | ⟨0, _⟩ => rfl | ⟨1, _⟩ => rfl
theorem idx_v1v2 (b : Fin 16) (k : Fin 2048) (e : Fin 1024) : idx_main_v1 (idx_main_v2 (ix3 b k e)) = ix1 e :=
  funext fun a => by match a with | ⟨0, _⟩ => rfl
theorem lidx_v4 (b : Fin 16) (q k : Fin 2048) (d : Fin 1024) : lidx_main_v4 (ix3 b q k) d = ix3 b q d :=
  funext fun a => by match a with | ⟨0, _⟩ => rfl | ⟨1, _⟩ => rfl | ⟨2, _⟩ => rfl
theorem ridx_v4 (b : Fin 16) (q k : Fin 2048) (d : Fin 1024) : ridx_main_v4 (ix3 b q k) d = ix3 b k d :=
  funext fun a => by match a with | ⟨0, _⟩ => rfl | ⟨1, _⟩ => rfl | ⟨2, _⟩ => rfl
theorem idx_v8v9 (b : Fin 16) (q k : Fin 2048) : idx_main_v8 (idx_main_v9 (ix3 b q k)) = ix2 b q :=
  funext fun a => by match a with | ⟨0, _⟩ => rfl | ⟨1, _⟩ => rfl
theorem idx_v13v14 (b : Fin 16) (q k : Fin 2048) : idx_main_v13 (idx_main_v14 (ix3 b q k)) = ix2 b q :=
  funext fun a => by match a with | ⟨0, _⟩ => rfl | ⟨1, _⟩ => rfl
theorem idx_v12 (b : Fin 16) (q k : Fin 2048) : idx_main_v12 (ix2 b q) k = ix3 b q k :=
  funext fun a => by match a with | ⟨0, _⟩ => rfl | ⟨1, _⟩ => rfl | ⟨2, _⟩ => rfl
theorem lidx_v16 (b : Fin 16) (q k : Fin 2048) (d : Fin 1024) : lidx_main_v16 (ix3 b q d) k = ix3 b q k :=
  funext fun a => by match a with | ⟨0, _⟩ => rfl | ⟨1, _⟩ => rfl | ⟨2, _⟩ => rfl
theorem ridx_v16 (b : Fin 16) (q k : Fin 2048) (d : Fin 1024) : ridx_main_v16 (ix3 b q d) k = ix3 b k d :=
  funext fun a => by match a with | ⟨0, _⟩ => rfl | ⟨1, _⟩ => rfl | ⟨2, _⟩ => rfl

/-- The f32 pattern of `-∞` denotes `⊥`. -/
theorem neg_inf : Ideal.ofBits .f32 0xFF800000#32 = ⊥ := by simp [Ideal.ofBits, Ideal.ieee]

/-! ## The stages at an entry -/

/-- The projected keys at `(b, k, e)`. -/
theorem keys_read (b : Fin 16) (k : Fin 2048) (e : Fin 1024) :
    val_main_v3 (F := Ideal) x1 x2 x3 (ix3 b k e) = Attn.keyRows (Attn.encRows x1 b) x2 x3 k e := by
  rw [val_main_v3_apply, val_main_v0_apply, val_main_v2_apply, val_main_v1_apply, idx_v1v2]
  unfold Attn.keyRows Attn.encRows
  refine congrArg (· + x3 (ix1 e)) ?_
  exact Finset.sum_congr rfl fun d _ => by rw [lidx_v0, ridx_v0]

/-- The scores of decoder row `(b, q)`, as a row. -/
theorem scores_read (b : Fin 16) (q : Fin 2048) :
    (fun k => val_main_v4 (F := Ideal) x0 x1 x2 x3 (ix3 b q k))
      = Attn.scoreRow (fun d => x0 (ix3 b q d)) (Attn.keyRows (Attn.encRows x1 b) x2 x3) := by
  funext k
  rw [val_main_v4_apply]
  unfold Attn.scoreRow
  exact Finset.sum_congr rfl fun d _ => by rw [lidx_v4, ridx_v4, keys_read]

/-- The row maximum the softmax subtracts, at `(b, q)`. -/
theorem max_read (b : Fin 16) (q : Fin 2048) :
    val_main_v7 (F := Ideal) x0 x1 x2 x3 (ix2 b q)
      = Attn.rowMax (fun k => val_main_v4 (F := Ideal) x0 x1 x2 x3 (ix3 b q k)) := by
  rw [val_main_v7_apply, val_main_v6_apply, val_main_cst_0_apply]
  unfold val_main_v5 Attn.rowMax
  rw [LibReduceLast3.hostMaxLast_apply _ _ reducesTo_S16x2048x2048_S16x2048_d2 (by decide) h_S_ b q, val_main_cst_apply]
  show max (Ideal.ofBits .f32 0xFF800000#32) (Finset.fold max (Ideal.ofBits .f32 0xFF800000#32) _ _) = _
  rw [neg_inf, max_bot_left]

/-- The shifted exponential at `(b, q, k)`. -/
theorem exp_read (b : Fin 16) (q k : Fin 2048) :
    val_main_v11 (F := Ideal) x0 x1 x2 x3 (ix3 b q k)
      = Ideal.exp (val_main_v4 (F := Ideal) x0 x1 x2 x3 (ix3 b q k)
          - Attn.rowMax (fun k => val_main_v4 (F := Ideal) x0 x1 x2 x3 (ix3 b q k))) := by
  rw [val_main_v11_apply, val_main_v10_apply, val_main_v9_apply, val_main_v8_apply, idx_v8v9, max_read]
  rfl

/-- The alignment at `(b, q, k)`. -/
theorem align_read (b : Fin 16) (q k : Fin 2048) :
    val_main_v15 (F := Ideal) x0 x1 x2 x3 (ix3 b q k)
      = Attn.alignRow (fun d => x0 (ix3 b q d)) (Attn.keyRows (Attn.encRows x1 b) x2 x3) k := by
  rw [val_main_v15_apply, val_main_v14_apply, val_main_v13_apply, idx_v13v14, val_main_v12_apply, val_main_cst_1_apply,
    exp_read]
  unfold Attn.alignRow Attn.softmaxRow
  rw [← scores_read x0 x1 x2 x3 b q]
  show Ideal.div _ (Ideal.ofBits .f32 0x00000000#32 + _) = _
  rw [Ideal.ofBits_zero_f32, zero_add]
  refine congrArg (Ideal.div _) ?_
  exact Finset.sum_congr rfl fun k' _ => by rw [idx_v12, exp_read]

/-- The reference's alignment result is `Attn.alignment` of its arguments. -/
theorem alignment_eq : val_main_v15 (F := Ideal) x0 x1 x2 x3 = Attn.alignment x0 x1 x2 x3 := by
  funext i
  obtain ⟨b, q, k, rfl⟩ : ∃ (b : Fin 16) (q k : Fin 2048), i = ix3 b q k := ⟨i 0, i 1, i 2, eq_ix3 i⟩
  exact align_read x0 x1 x2 x3 b q k

/-- The reference's context result is `Attn.context` of its arguments. -/
theorem context_eq : val_main_v16 (F := Ideal) x0 x1 x2 x3 = Attn.context x0 x1 x2 x3 := by
  funext i
  obtain ⟨b, q, d, rfl⟩ : ∃ (b : Fin 16) (q : Fin 2048) (d : Fin 1024), i = ix3 b q d := ⟨i 0, i 1, i 2, eq_ix3 i⟩
  rw [val_main_v16_apply]
  show _ = Attn.ctxRow (Attn.alignRow (fun d => x0 (ix3 b q d)) (Attn.keyRows (Attn.encRows x1 b) x2 x3)) (Attn.encRows x1 b) d
  unfold Attn.ctxRow
  exact Finset.sum_congr rfl fun k _ => by rw [lidx_v16, ridx_v16, align_read]; rfl

end Attn.Ref

end
-- ==== Proof.lean ====
/-
  Luong attention with a dense key projection — one fused kernel against its reference — on the extended reals.

  Both programs compute, for batch `b`, the keys `enc[b] · W + bias`, the scores `dec[b] · keysᵀ`, their softmax
  along the encoder axis (shifted by the row maximum, normalised by the row sum) and the context
  `alignment · enc[b]`. The kernel walks a grid of 16 batches by 8 decoder tiles, projects a batch's keys at the
  batch's first tile into a buffer it keeps across the batch's other tiles, and writes one 256-row block of each
  result per point; the reference does the same with three contractions over whole arrays. Entry by entry the two
  are the same sums, the same maximum, the same exponentials and the same quotient (`Attn.alignment`,
  `Attn.context`): no law beyond reading each operation at an entry is needed, so the inputs' finiteness is never
  used. The idealization rewrote nothing, so it preserves the kernel trivially.
-/
import proofs.«172299_j24086176596734_2_alg».proof.Defs
import proofs.«172299_j24086176596734_2_alg».proof.Proof.Gen.Kernel
import proofs.«172299_j24086176596734_2_alg».proof.Proof.Gen.Kernel.Skeleton
import proofs.«172299_j24086176596734_2_alg».proof.Proof.Gen.Kernel.Launch
import proofs.«172299_j24086176596734_2_alg».proof.Proof.Gen.Kernel.Points
import proofs.«172299_j24086176596734_2_alg».proof.Proof.Gen.Kernel.Frame
import proofs.«172299_j24086176596734_2_alg».proof.Proof.Gen.KernelIdeal
import proofs.«172299_j24086176596734_2_alg».proof.Proof.Gen.KernelIdeal.Skeleton
import proofs.«172299_j24086176596734_2_alg».proof.Proof.Gen.KernelIdeal.Launch
import proofs.«172299_j24086176596734_2_alg».proof.Proof.Gen.KernelIdeal.Points
import proofs.«172299_j24086176596734_2_alg».proof.Proof.Gen.KernelIdeal.Frame
import proofs.«172299_j24086176596734_2_alg».proof.Proof.Gen.ReferenceIdeal
import proofs.«172299_j24086176596734_2_alg».proof.Proof.Gen.Pre_finite_inputs
import proofs.«172299_j24086176596734_2_alg».proof.Proof.Gen.KernelIdeal.Value
import proofs.«172299_j24086176596734_2_alg».proof.Proof.Gen.ReferenceIdeal.Run
import proofs.«172299_j24086176596734_2_alg».proof.Proof.Gen.ReferenceIdeal.Read
import proofs.«172299_j24086176596734_2_alg».proof.Proof.KernelValue
import proofs.«172299_j24086176596734_2_alg».proof.Proof.RefValue
import Idealize.ShloMosaic.Adequacy
import Idealize.ShloMosaic.Init

noncomputable section

namespace Cert.Proof

open Idealize.ShloMosaic Idealize.SL.Sem

/-- The kernel as printed runs and leaves its arguments alone. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- So does the reference: its run, with the results dropped. -/
theorem frame_ri : Cert.frame_ReferenceIdeal := fun m ρ _ =>
  (θ_run Cert.ReferenceIdeal.defs _ _).mono (fun _ h c => (h c).2.2)
    (Cert.ReferenceIdeal.Value.run (F := Ideal) m ρ)

/-- From memories that agree on the four arguments both programs end with the context array at `Attn.context` and
    the alignment array at `Attn.alignment` of those arguments. -/
theorem algebraic : Cert.algebraic_KernelIdeal_ReferenceIdeal := by
  intro m ρ m' ρ' _ hagree
  refine ⟨fun c => Attn.Kernel.ctxArr m c, fun c => Attn.Kernel.alignArr m c, Attn.Kernel.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v16_eq, Attn.Ref.context_eq, (hagree c).1, (hagree c).2.1, (hagree c).2.2.1,
      (hagree c).2.2.2]
  · rw [Cert.ReferenceIdeal.Read.val_main_v15_eq, Attn.Ref.alignment_eq, (hagree c).1, (hagree c).2.1, (hagree c).2.2.1,
      (hagree c).2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
